-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  main_v18

def fn {F : FTy → Type} [FloatOps F] (main_arg0 : FVec F S500000x128 .f32) (main_arg1 : FVec F S128x128 .f32) (main_arg2 : FVec F S128x128 .f32) (main_arg3 : FVec F S500000x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S500000x128 .f32 := Host.absf main_arg3
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_v13 main_v16
-- ==== Kernel.lean ====
abbrev S500000x128 : Shape := ⟨2, ![500000, 128]⟩
abbrev S128x128 : Shape := ⟨2, ![128, 128]⟩
abbrev S10000x128 : Shape := ⟨2, ![10000, 128]⟩

abbrev nBuf : Space → Nat
  | .hbm => 6
  | .vmem => 7
  | .smem => 0
  | _ => 0

abbrev bufTy : (tb : Table) → Fin (tcTables nBuf tb) → BufTy
  | .hbm, ⟨0, _⟩ => ⟨S500000x128, .f32⟩
  | .hbm, ⟨1, _⟩ => ⟨S128x128, .f32⟩
  | .hbm, ⟨2, _⟩ => ⟨S128x128, .f32⟩
  | .hbm, ⟨3, _⟩ => ⟨S500000x128, .f32⟩
  | .hbm, ⟨4, _⟩ => ⟨S128x128, .f32⟩
  | .hbm, ⟨5, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S128x128_S128x128_S128x128_1_0_0_1_n_n_wf : DotDims.WF S128x128 S128x128 S128x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S128x128 : Shape := ⟨2, ![128, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S128x128, .f32⟩
  | .hbm, ⟨2, _⟩ => ⟨S128x128, .f32⟩
  | .hbm, ⟨3, _⟩ => ⟨S500000x128, .f32⟩
  | .hbm, ⟨4, _⟩ => ⟨S500000x128, .f32⟩
  | .hbm, ⟨5, _⟩ => ⟨S500000x128, .f32⟩
  | .hbm, ⟨6, _⟩ => ⟨S500000x128, .f32⟩
  | .hbm, ⟨7, _⟩ => ⟨S_, .f32⟩
  | .hbm, ⟨8, _⟩ => ⟨S500000x128, .f32⟩
  | .hbm, ⟨9, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩

abbrev nD : Nat := 1
abbrev τ : Topo := Topo.v7x

variable {F : FTy → Type} [FloatOps F]

class Facts₀ : Prop where
  bcast_S_S500000x128 : S_.BroadcastsInDim S500000x128 (![] : Fin 0 → Fin S500000x128.rank)
  dot_S500000x128_S128x128_S500000x128_1_0_0_1_n_n_wf : DotDims.WF S500000x128 S128x128 S500000x128 [1] [0] [0] [1] [] []

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Finite.lean ====
/-
  What the precondition says of the four argument arrays: every entry is a real number.

  The precondition is the conjunction, array by array, of "every entry's absolute value is below +inf". The absolute
  value of an extended real `a` is `max a (-a)`, which is +inf exactly when `a` is one of the two infinities; so an entry
  that passes the test is a real number (`real_of_abs_lt_top`). `finite_of_pre` splits the conjunction and reads each
  "for all entries" back at one entry.
-/
import proofs.«138711_j8375186227896_1_alg».proof.Pre_finite_inputs
import Idealize.ShloMosaic.Lib.ReduceAll
import Idealize.ShloMosaic.Lib.ValueIdx
import Idealize.ShloMosaic.PureOps.Ideal.Laws

noncomputable section

namespace Cert.Gcn

open Idealize.ShloMosaic Idealize.ShloMosaic.ValueIdx Cert.Pre_finite_inputs

/-- The scalar shape has one index. -/
instance : Subsingleton S_.Idx := ⟨fun a b => funext fun d => d.elim0⟩

/-- The pattern of +inf denotes the top of the extended reals. -/
theorem ofBits_inf : Ideal.ofBits .f32 0x7F800000#32 = (⊤ : EReal) := by simp [Ideal.ofBits, Ideal.ieee]

/-- An extended real whose absolute value is below +inf is a real number. -/
theorem real_of_abs_lt_top (a : EReal) (h : Ideal.cmp .olt (max a (-a)) (Ideal.ofBits .f32 0x7F800000#32) = 1#1) :
    ∃ r : ℝ, a = r := by
  rw [ofBits_inf] at h
  have hlt : max a (-a) < ⊤ := by
    by_contra hn
    have h0 : Ideal.cmp .olt (max a (-a)) ⊤ = 0#1 := by
      show BitVec.ofBool (decide (max a (-a) < ⊤)) = 0#1
      rw [decide_eq_false hn]; rfl
    rw [h0] at h
    exact absurd h (by decide)
  induction a using EReal.rec with
  | bot => simp at hlt
  | coe r => exact ⟨r, rfl⟩
  | top => simp at hlt

variable [Facts]

/-- Under the precondition every entry of the input, of the two square matrices and of the mask is a real number. -/
theorem finite_of_pre (x : FVec Ideal S500000x128 .f32) (w s : FVec Ideal S128x128 .f32) (d : FVec Ideal S500000x128 .f32)
    (h : fn (F := Ideal) x w s d = fun _ => 1#1) :
    (∀ i, ∃ r : ℝ, x i = r) ∧ (∀ i, ∃ r : ℝ, w i = r) ∧ (∀ i, ∃ r : ℝ, s i = r) ∧ (∀ i, ∃ r : ℝ, d i = r) := by
  have h0 := congrFun h ix0
  dsimp only [fn, fn_part1, Idealize.ShloMosaic.andi] at h0
  obtain ⟨h012, h3⟩ := IntOp.andi_eq_one.1 h0
  obtain ⟨h01, h2⟩ := IntOp.andi_eq_one.1 h012
  obtain ⟨hx, hw⟩ := IntOp.andi_eq_one.1 h01
  exact ⟨fun i => real_of_abs_lt_top _ (Host.reduce_andi_all _ _ _ _ _ hx i),
    fun i => real_of_abs_lt_top _ (Host.reduce_andi_all _ _ _ _ _ hw i),
    fun i => real_of_abs_lt_top _ (Host.reduce_andi_all _ _ _ _ _ h2 i),
    fun i => real_of_abs_lt_top _ (Host.reduce_andi_all _ _ _ _ _ h3 i)⟩

end Cert.Gcn

end
-- ==== Proof.Assoc.lean ====
/-
  Two arrangements of one layer, entry by entry, and the law that joins them.

  Write `a p j = x p j * d p j` for the masked input row `p`. The layer's entry `(p, q)` is the positive part of a
  double sum over `j` and `k` of `a p j * w j k * s k q`. It can be grouped in two ways:
  `fused`:   `max (∑ j, a p j * (∑ k, w j k * s k q)) 0` — the two square matrices are multiplied first;
  `chained`: `max (∑ k, (∑ j, a p j * w j k) * s k q) 0` — the row is carried through one matrix after the other.
  Over the reals the two are equal: distribute each product over the inner sum and exchange the two finite sums
  (`sum_mul_sum_assoc`). On the extended reals distributivity fails at the infinities, so `fused_eq_chained` asks
  every entry of the four arrays to be a real number.
-/
import Idealize.ShloMosaic.PureOps.Ideal
import Idealize.ShloMosaic.Lib.ValueIdx

noncomputable section

open scoped BigOperators

namespace Cert.Gcn

open Idealize.ShloMosaic Idealize.ShloMosaic.ValueIdx

/-- The shape of the input, the mask and the result: 500000 rows of 128 entries. -/
abbrev Rows : Shape := ⟨2, ![500000, 128]⟩
/-- The shape of the two square matrices. -/
abbrev Sq : Shape := ⟨2, ![128, 128]⟩

/-- The coercion of the reals into the extended reals commutes with finite sums. -/
theorem coe_sum {ι : Type*} (t : Finset ι) (f : ι → ℝ) : ((∑ i ∈ t, f i : ℝ) : EReal) = ∑ i ∈ t, (f i : EReal) := by
  classical
  refine Finset.induction_on t (by simp) fun i t hi ih => ?_
  rw [Finset.sum_insert hi, Finset.sum_insert hi, EReal.coe_add, ih]

/-- ASSOCIATIVITY OF THE MATRIX PRODUCT, one entry, on real numbers read as extended reals: a row times a product of two
    matrices is the row times the first, times the second. -/
theorem sum_mul_sum_assoc {J K : Type*} [Fintype J] [Fintype K] (a : J → ℝ) (w : J → K → ℝ) (s : K → ℝ) :
    ∑ j, (a j : EReal) * ∑ k, (w j k : EReal) * (s k : EReal)
      = ∑ k, (∑ j, (a j : EReal) * (w j k : EReal)) * (s k : EReal) := by
  have hl : ∑ j, (a j : EReal) * ∑ k, (w j k : EReal) * (s k : EReal) = ((∑ j, a j * ∑ k, w j k * s k : ℝ) : EReal) := by
    rw [coe_sum]
    refine Finset.sum_congr rfl fun j _ => ?_
    rw [EReal.coe_mul, coe_sum]
    refine congrArg _ (Finset.sum_congr rfl fun k _ => ?_)
    rw [EReal.coe_mul]
  have hr : ∑ k, (∑ j, (a j : EReal) * (w j k : EReal)) * (s k : EReal) = ((∑ k, (∑ j, a j * w j k) * s k : ℝ) : EReal) := by
    rw [coe_sum]
    refine Finset.sum_congr rfl fun k _ => ?_
    rw [EReal.coe_mul, coe_sum]
    refine congrArg (· * (s k : EReal)) (Finset.sum_congr rfl fun j _ => ?_)
    rw [EReal.coe_mul]
  rw [hl, hr]
  refine congrArg _ ?_
  simp only [Finset.mul_sum, Finset.sum_mul]
  rw [Finset.sum_comm]
  exact Finset.sum_congr rfl fun k _ => Finset.sum_congr rfl fun j _ => by ring

/-- Entry `(p, q)` with the two square matrices multiplied first. -/
def fused (x d : Rows.Idx → EReal) (w s : Sq.Idx → EReal) (p : Fin 500000) (q : Fin 128) : EReal :=
  max (∑ j : Fin 128, (x (ix2 p j) * d (ix2 p j)) * ∑ k : Fin 128, w (ix2 j k) * s (ix2 k q)) 0

/-- Entry `(p, q)` with the masked row carried through the first matrix, then the second. -/
def chained (x d : Rows.Idx → EReal) (w s : Sq.Idx → EReal) (p : Fin 500000) (q : Fin 128) : EReal :=
  max (∑ k : Fin 128, (∑ j : Fin 128, (x (ix2 p j) * d (ix2 p j)) * w (ix2 j k)) * s (ix2 k q)) 0

/-- When every entry of the four arrays is a real number the two arrangements agree. -/
theorem fused_eq_chained (x d : Rows.Idx → EReal) (w s : Sq.Idx → EReal)
    (hx : ∀ i, ∃ r : ℝ, x i = r) (hd : ∀ i, ∃ r : ℝ, d i = r) (hw : ∀ i, ∃ r : ℝ, w i = r) (hs : ∀ i, ∃ r : ℝ, s i = r)
    (p : Fin 500000) (q : Fin 128) : fused x d w s p q = chained x d w s p q := by
  choose xr hxr using hx
  choose dr hdr using hd
  choose wr hwr using hw
  choose sr hsr using hs
  unfold fused chained
  simp only [hxr, hdr, hwr, hsr, ← EReal.coe_mul (xr _) (dr _)]
  exact congrArg (max · 0) (sum_mul_sum_assoc (fun j => xr (ix2 p j) * dr (ix2 p j)) (fun j k => wr (ix2 j k)) (fun k => sr (ix2 k q)))

end Cert.Gcn

end
-- ==== Proof.RefValue.lean ====
/-
  The reference's result, entry by entry, is the `chained` arrangement: the masked row `x p · d p` times the first
  square matrix (a sum over `j`), that row times the second (a sum over `k`), and the positive part of the entry.
  The generated read-at-an-index lemmas give each stage at an index from its operands at an index; what is written
  here is that the indices they name are rows and columns: the left factor of a product is read along row `p`, the right
  factor down column `q`.
-/
import proofs.«138711_j8375186227896_1_alg».proof.Proof.Gen.ReferenceIdeal.Read
import proofs.«138711_j8375186227896_1_alg».proof.Proof.Assoc

noncomputable section

namespace Cert.Gcn.Ref

open Cert.ReferenceIdeal Cert.ReferenceIdeal.Gen Cert.ReferenceIdeal.Read Idealize.ShloMosaic Idealize.ShloMosaic.ValueIdx

/-- Entry `(p, q)` of the second product reads its left factor along row `p`. -/
theorem lrow2 (p : Fin 500000) (q k : Fin 128) : lidx_main_v2 (ix2 p q) k = ix2 p k :=
  funext fun a => Fin.ext (by match a with | ⟨0, _⟩ => rfl | ⟨1, _⟩ => rfl)
/-- and its right factor down column `q`. -/
theorem rcol2 (p : Fin 500000) (q k : Fin 128) : ridx_main_v2 (ix2 p q) k = ix2 k q :=
  funext fun a => Fin.ext (by match a with | ⟨0, _⟩ => rfl | ⟨1, _⟩ => rfl)
/-- Entry `(p, k)` of the first product reads its left factor along row `p`. -/
theorem lrow1 (p : Fin 500000) (k j : Fin 128) : lidx_main_v1 (ix2 p k) j = ix2 p j :=
  funext fun a => Fin.ext (by match a with | ⟨0, _⟩ => rfl | ⟨1, _⟩ => rfl)
/-- and its right factor down column `k`. -/
theorem rcol1 (p : Fin 500000) (k j : Fin 128) : ridx_main_v1 (ix2 p k) j = ix2 j k :=
  funext fun a => Fin.ext (by match a with | ⟨0, _⟩ => rfl | ⟨1, _⟩ => rfl)

/-- THE REFERENCE'S RESULT as one function of the four argument arrays: at every index the `chained` arrangement. -/
theorem result_eq (x0 : (⟨S500000x128, .f32⟩ : BufTy).Contents (Elt Ideal)) (x1 x2 : (⟨S128x128, .f32⟩ : BufTy).Contents (Elt Ideal))
    (x3 : (⟨S500000x128, .f32⟩ : BufTy).Contents (Elt Ideal)) :
    val_main_v3 (F := Ideal) x0 x1 x2 x3 = fun i => Cert.Gcn.chained x0 x3 x1 x2 (i 0) (i 1) := by
  funext i
  obtain ⟨p, q, rfl⟩ : ∃ (p : Fin 500000) (q : Fin 128), i = ix2 p q := ⟨i 0, i 1, eq_ix2 i⟩
  rw [val_main_v3_apply, val_main_v2_apply]
  simp only [lrow2, rcol2, val_main_v1_apply, lrow1, rcol1, val_main_v0_apply, val_main_call0_v0_apply,
    val_main_call0_cst_apply, Ideal.maximumf_def, Ideal.mulf_def, Ideal.ofBits_def, Ideal.ofBits_zero_f32]
  rfl

end Cert.Gcn.Ref

end
-- ==== Proof.Payload.lean ====
/-
  The kernel's arithmetic at one entry.

  A matrix product with one contracted axis, read at entry `(p, q)`, is the sum over the contracted position `j` of the
  left factor at `(p, j)` times the right factor at `(j, q)`: once for the body's product of a block of 10000 rows with
  a square matrix, accumulated from zero (`block_product_entry`), once for the product of the two square matrices that is
  computed before the grid runs (`square_product_entry`). The body multiplies its two row blocks entry by entry, takes
  that product with its third operand and keeps the positive part; `payload_entry` is the body's one stored value
  at an entry.
-/
import proofs.«138711_j8375186227896_1_alg».proof.Proof.Gen.KernelIdeal.Skeleton
import proofs.«138711_j8375186227896_1_alg».proof.Proof.Assoc
import Idealize.ShloMosaic.PureOps.Ideal.Laws
import Idealize.ShloMosaic.Lib.Pipeline.Value
import Idealize.ShloMosaic.Lib.ValueIdx

noncomputable section

namespace Cert.Gcn.Kern

open Cert.KernelIdeal Cert.KernelIdeal.Gen Idealize.ShloMosaic Idealize.ShloMosaic.ValueIdx

/-! ## The block product -/

/-- The product of a row block with a square matrix: an entry's left factor is read at the entry's row, -/
theorem blk_lhs0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- at the contracted position; -/
theorem blk_lhs1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
/-- its right factor at the contracted position, -/
theorem blk_rhs0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
/-- in the entry's column. -/
theorem blk_rhs1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- THE BLOCK PRODUCT AT AN ENTRY, accumulated from zero: row `p` of the left factor against column `q` of the right. -/
theorem block_product_entry (a : FVec Ideal S10000x128 .f32) (b : FVec Ideal S128x128 .f32) (p : Fin 10000) (q : Fin 128) :
    matmul dot_S10000x128_S128x128_S10000x128_1_0_0_1_n_n none a b (constant (F := Ideal) S10000x128 .f32 0x00000000#32) (ix2 p q)
      = ∑ j : Fin 128, a (ix2 p j) * b (ix2 j q) := by
  simp only [Idealize.ShloMosaic.matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact blk_lhs0 _ _
    | ⟨1, _⟩ => exact (blk_lhs1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-! ## The product of the two square matrices -/

/-- The product of the two square matrices: an entry's left factor is read at the entry's row, -/
theorem sq_lhs0 (i : S128x128.Idx) (c : dot_S128x128_S128x128_S128x128_1_0_0_1_n_n.contr.Idx) :
    (dot_S128x128_S128x128_S128x128_1_0_0_1_n_n.lhsIdx i c 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
/-- at the contracted position; -/
theorem sq_lhs1 (i : S128x128.Idx) (c : dot_S128x128_S128x128_S128x128_1_0_0_1_n_n.contr.Idx) :
    (dot_S128x128_S128x128_S128x128_1_0_0_1_n_n.lhsIdx i c 1).val = (c ⟨0, by decide⟩).val :=
  dot_S128x128_S128x128_S128x128_1_0_0_1_n_n.lhsIdx_val_of_single rfl i c
/-- its right factor at the contracted position, -/
theorem sq_rhs0 (i : S128x128.Idx) (c : dot_S128x128_S128x128_S128x128_1_0_0_1_n_n.contr.Idx) :
    (dot_S128x128_S128x128_S128x128_1_0_0_1_n_n.rhsIdx i c 0).val = (c ⟨0, by decide⟩).val :=
  dot_S128x128_S128x128_S128x128_1_0_0_1_n_n.rhsIdx_val_of_single rfl i c
/-- in the entry's column. -/
theorem sq_rhs1 (i : S128x128.Idx) (c : dot_S128x128_S128x128_S128x128_1_0_0_1_n_n.contr.Idx) :
    (dot_S128x128_S128x128_S128x128_1_0_0_1_n_n.rhsIdx i c 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- THE SQUARE PRODUCT AT AN ENTRY: row `p` of the first matrix against column `q` of the second. -/
theorem square_product_entry (w s : FVec Ideal S128x128 .f32) (p q : Fin 128) :
    Host.dotGeneral dot_S128x128_S128x128_S128x128_1_0_0_1_n_n none w s (ix2 p q) = ∑ k : Fin 128, w (ix2 p k) * s (ix2 k q) := by
  simp only [Host.dotGeneral]
  rw [Ideal.dotGeneral_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p q) ((contrEquiv1 dot_S128x128_S128x128_S128x128_1_0_0_1_n_n 128 rfl rfl).symm k) = ix2 p k := funext fun a => Fin.ext (by
    match a with
    | ⟨0, _⟩ => exact sq_lhs0 _ _
    | ⟨1, _⟩ => exact (sq_lhs1 _ _).trans hk)
  have er : dot_S128x128_S128x128_S128x128_1_0_0_1_n_n.rhsIdx (ix2 p q) ((contrEquiv1 dot_S128x128_S128x128_S128x128_1_0_0_1_n_n 128 rfl rfl).symm k) = ix2 k q := funext fun a => Fin.ext (by
    match a with
    | ⟨0, _⟩ => exact (sq_rhs0 _ _).trans hk
    | ⟨1, _⟩ => exact sq_rhs1 _ _)
  rw [el, er]

/-! ## The body's stored value -/

/-- THE BODY'S STORED VALUE AT AN ENTRY of its block: the positive part of the masked row `p` of the block against column
    `q` of the third operand. -/
theorem payload_entry (v0 v1 : Vec Ideal S10000x128 .f32) (v3 : Vec Ideal S128x128 .f32) (p : Fin 10000) (q : Fin 128) :
    k0_pay1 (F := Ideal) v0 v1 v3 (ix2 p q) = max (∑ j : Fin 128, (v0 (ix2 p j) * v1 (ix2 p j)) * v3 (ix2 j q)) 0 := by
  unfold k0_pay1
  show max (matmul dot_S10000x128_S128x128_S10000x128_1_0_0_1_n_n none (mulf v0 v1) (shapeCast S128x128 v3 _) (constant (F := Ideal) S10000x128 .f32 0x00000000#32) (ix2 p q))
      (Ideal.ofBits .f32 0x00000000#32) = _
  rw [shapeCast_self, block_product_entry, Ideal.ofBits_zero_f32]
  rfl

end Cert.Gcn.Kern

end
-- ==== Proof.KernelValue.lean ====
/-
  The kernel's result array, as one function of the four argument arrays.

  The grid has 50 points. Point `t` reads rows `t·10000 … t·10000 + 9999` of the input and of the mask, reads the whole
  product of the two square matrices (computed once, before the grid runs), and writes back the same rows of the
  result. So entry `(p, q)` of what point `t` writes is the positive part of the masked input row `t·10000 + p` against
  column `q` of that product: the `fused` arrangement at row `t·10000 + p`. Every row `r` of the result lies in exactly
  the block of point `r / 10000`, so after the run the whole array is `fused`, index by index.
-/
import proofs.«138711_j8375186227896_1_alg».proof.Proof.Gen.KernelIdeal.Value
import proofs.«138711_j8375186227896_1_alg».proof.Proof.Payload
import Idealize.ShloMosaic.Lib.Pipeline.Value
import Idealize.ShloMosaic.Lib.StableHlo.Run
import Idealize.ShloMosaic.Lib.Tactic

noncomputable section

namespace Cert.Gcn.Kern

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The input as launched, -/
abbrev inputOf (c : Dev nD) : S500000x128.Idx → EReal := m ((c : Thread nD τ).loc main_arg0)
/-- the first and -/
abbrev firstOf (c : Dev nD) : S128x128.Idx → EReal := m ((c : Thread nD τ).loc main_arg1)
/-- the second square matrix, -/
abbrev secondOf (c : Dev nD) : S128x128.Idx → EReal := m ((c : Thread nD τ).loc main_arg2)
/-- and the mask. -/
abbrev maskOf (c : Dev nD) : S500000x128.Idx → EReal := m ((c : Thread nD τ).loc main_arg3)

/-- THE RESULT: at every index the `fused` arrangement of the four argument arrays as launched. -/
abbrev result (c : Dev nD) : Buf (Elt Ideal) ((c : Thread nD τ).loc main_v1) :=
  fun (i : S500000x128.Idx) => Cert.Gcn.fused (inputOf m c) (maskOf m c) (firstOf m c) (secondOf m c) (i 0) (i 1)

theorem zero_offsets : (![0, 0] : Fin 2 → Nat) = fun _ => 0 := funext fun a => by fin_cases a <;> rfl

/-! ## Where the blocks sit -/

/-- At point `t` the input's, the mask's and the result's blocks are block `t` down the rows and the only block across;
    the product of the two square matrices is one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What the grid finds in its operands -/

/-- The third operand, as the grid finds it, is the product of the two square matrices as launched. -/
theorem product_at_entry (c : Dev nD) :
    V m c main_v0
      = Host.dotGeneral (F := Ideal) (φ₁ := .f32) (φ₂ := .f32) dot_S128x128_S128x128_S128x128_1_0_0_1_n_n none (firstOf m c) (secondOf m c) := by
  dsimp only [V, hostOps0]; after_results

/-- Row `p` of the input's block at point `t` is row `t·10000 + p` of the input. -/
theorem input_block (c : Dev nD) (t : Fin cfg0.N) (p : Fin 10000) (j : Fin 128) (r : Fin 500000) (hr : r.val = t.val * 10000 + p.val) :
    iblk m c 0 t (ix2 p j) = inputOf m c (ix2 r j) := by
  refine Eq.trans ?_ (congrFun (V_main_arg0 m c) (ix2 r j))
  show V m c main_arg0 (((cfg0.win 0).blk t).view.emb (ix2 p j)) = V m c main_arg0 (ix2 r j)
  refine congrArg _ (funext fun a => Fin.ext ?_)
  obtain ⟨e0, e1, -⟩ := block_index t
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- Row `p` of the mask's block at point `t` is row `t·10000 + p` of the mask. -/
theorem mask_block (c : Dev nD) (t : Fin cfg0.N) (p : Fin 10000) (j : Fin 128) (r : Fin 500000) (hr : r.val = t.val * 10000 + p.val) :
    iblk m c 1 t (ix2 p j) = maskOf m c (ix2 r j) := by
  refine Eq.trans ?_ (congrFun (V_main_arg3 m c) (ix2 r j))
  show V m c main_arg3 (((cfg0.win 1).blk t).view.emb (ix2 p j)) = V m c main_arg3 (ix2 r j)
  refine congrArg _ (funext fun a => Fin.ext ?_)
  obtain ⟨-, -, e0, e1, -⟩ := block_index t
  match a with
  | ⟨0, _⟩ => show win0_1.index t (0 : Fin 2) * 10000 + 1 * p.val = r.val; rw [e0, hr]; omega
  | ⟨1, _⟩ => show win0_1.index t (1 : Fin 2) * 128 + 1 * j.val = j.val; rw [e1]; omega

/-- The third operand's block at any point is the whole product: entry `(j, q)` is row `j` of the first square matrix
    against column `q` of the second. -/
theorem product_block (c : Dev nD) (t : Fin cfg0.N) (j q : Fin 128) :
    iblk m c 2 t (ix2 j q) = ∑ k : Fin 128, firstOf m c (ix2 j k) * secondOf m c (ix2 k q) := by
  refine Eq.trans ?_ (square_product_entry (firstOf m c) (secondOf m c) j q)
  refine Eq.trans ?_ (congrFun (product_at_entry m c) (ix2 j q))
  show V m c main_v0 (((cfg0.win 2).blk t).view.emb (ix2 j q)) = V m c main_v0 (ix2 j q)
  refine congrArg _ (funext fun a => Fin.ext ?_)
  obtain ⟨-, -, -, -, e0, e1, -⟩ := block_index t
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-! ## What a point writes -/

/-- Entry `(p, q)` of what point `t` stores is the `fused` entry `(t·10000 + p, q)`. -/
theorem point_entry (c : Dev nD) (t : Fin cfg0.N) (p : Fin 10000) (q : Fin 128) (r : Fin 500000) (hr : r.val = t.val * 10000 + p.val) :
    k0_pay1 (F := Ideal) (iblk m c 0 t) (iblk m c 1 t) (iblk m c 2 t) (ix2 p q)
      = Cert.Gcn.fused (inputOf m c) (maskOf m c) (firstOf m c) (secondOf m c) r q := by
  refine (payload_entry (iblk m c 0 t) (iblk m c 1 t) (iblk m c 2 t) p q).trans ?_
  unfold Cert.Gcn.fused
  refine congrArg (max · 0) (Finset.sum_congr rfl fun j _ => ?_)
  rw [input_block m c t p j r hr, mask_block m c t p j r hr, product_block m c t j q]

/-- The same at an index `y` of the block and the index `i` of the array it is written to. -/
theorem point_value (c : Dev nD) (t : Fin cfg0.N) (y : S10000x128.Idx) (i : S500000x128.Idx)
    (hi0 : (i 0).val = t.val * 10000 + (y 0).val) (hi1 : (i 1).val = (y 1).val) :
    k0_pay1 (F := Ideal) (iblk m c 0 t) (iblk m c 1 t) (iblk m c 2 t) y = result m c i := by
  obtain ⟨p, q, rfl⟩ : ∃ (p : Fin 10000) (q : Fin 128), y = ix2 p q := ⟨y 0, y 1, eq_ix2 y⟩
  refine (point_entry m c t p q (i 0) hi0).trans ?_
  show Cert.Gcn.fused _ _ _ _ (i 0) q = Cert.Gcn.fused _ _ _ _ (i 0) (i 1)
  exact congrArg _ (Fin.ext hi1.symm)

/-- WHAT POINT `t` WRITES BACK is block `t` of `result`. -/
theorem flushed_eq (c : Dev nD) (t : Fin cfg0.N) :
    (dats m 0 c).flushed 3 t = ((cfg0.win 3).blk t).view.read (Elt Ideal) (result m c) := by
  rw [flushed3 m c t]
  unfold out0_3
  rw [View.canon_unit_zero zero_offsets]
  simp only [View.ld_unit_zero (S := S10000x128) zero_offsets, View.ld_unit_zero (S := S128x128) zero_offsets]
  funext y
  show k0_pay1 (F := Ideal) (iblk m c 0 t) (iblk m c 1 t) (iblk m c 2 t) y = result m c (((cfg0.win 3).blk t).view.emb y)
  obtain ⟨-, -, -, -, -, -, e0, e1⟩ := block_index t
  refine point_value m c t y _ ?_ ?_
  · show win0_3.index t (0 : Fin 2) * 10000 + 1 * (y 0).val = t.val * 10000 + (y 0).val; rw [e0]; omega
  · show win0_3.index t (1 : Fin 2) * 128 + 1 * (y 1).val = (y 1).val; rw [e1]; omega

/-! ## The blocks cover the array -/

/-- An index of the array is in point `t`'s block iff each coordinate is in the block's range on its axis. -/
theorem mem_block (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Row `r` of the result is written by point `r / 10000`. -/
theorem covered (i : S500000x128.Idx) : ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 50 := N_0
  obtain ⟨t, ht⟩ : ∃ t : Fin cfg0.N, t.val = (i 0).val / 10000 := ⟨⟨(i 0).val / 10000, by rw [hN]; omega⟩, rfl⟩
  obtain ⟨-, -, -, -, -, -, e0, e1⟩ := block_index t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 128 ≤ (i 1).val ∧ (i 1).val < win0_3.index t (1 : Fin 2) * 128 + 128; rw [e1]; omega

/-! ## The run -/

/-- THE ARRAY after the run is `result`. -/
theorem final (c : Dev nD) : (dats m 0 c).arrAt 3 cfg0.N = result m c :=
  (dats m 0 c).arrAt_eq_of_cover 3 (result m c) (fun t _ => flushed_eq m c t) covered

/-- The kernel's run, read: the result array ends at `result`, the four arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Gcn.Kern

end
-- ==== Proof.lean ====
/-
  A dropout-masked dense layer followed by a second square matrix and a positive part, computed two ways.

  Both programs take an input `x` and a mask `d` of 500000 rows by 128, and two 128 by 128 matrices `w` and `s`, and
  return `max ((x ∘ d) · w · s) 0`, entry by entry. The kernel multiplies `w · s` once, before its grid runs, and then,
  for each block of 10000 rows, multiplies the masked rows by that product (`fused`: the kernel's result array,
  Proof/KernelValue.lean over Proof/Payload.lean). The reference multiplies the masked rows by `w` and the result by
  `s` (`chained`: Proof/RefValue.lean). The two agree by the associativity of the matrix product (Proof/Assoc.lean),
  which on the extended reals needs every entry to be a real number: that is what the precondition says of the four
  arrays (Proof/Finite.lean). No operation was rewritten by the idealization, so nothing is owed for it.
-/
import proofs.«138711_j8375186227896_1_alg».proof.Defs
import proofs.«138711_j8375186227896_1_alg».proof.Proof.Gen.Kernel
import proofs.«138711_j8375186227896_1_alg».proof.Proof.Gen.Kernel.Frame
import proofs.«138711_j8375186227896_1_alg».proof.Proof.Gen.KernelIdeal
import proofs.«138711_j8375186227896_1_alg».proof.Proof.Gen.KernelIdeal.Frame
import proofs.«138711_j8375186227896_1_alg».proof.Proof.Gen.ReferenceIdeal
import proofs.«138711_j8375186227896_1_alg».proof.Proof.Gen.Pre_finite_inputs
import proofs.«138711_j8375186227896_1_alg».proof.Proof.Gen.KernelIdeal.Value
import proofs.«138711_j8375186227896_1_alg».proof.Proof.Gen.ReferenceIdeal.Run
import proofs.«138711_j8375186227896_1_alg».proof.Proof.Gen.ReferenceIdeal.Read
import proofs.«138711_j8375186227896_1_alg».proof.Proof.Finite
import proofs.«138711_j8375186227896_1_alg».proof.Proof.RefValue
import proofs.«138711_j8375186227896_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the `fused` arrangement and the reference's at the
    `chained` one; the precondition makes every entry of the four arrays a real number, and on real numbers the two
    arrangements are equal. -/
theorem algebraic : Cert.algebraic_KernelIdeal_ReferenceIdeal := by
  intro m ρ m' ρ' hpre hagree
  refine ⟨fun c => Cert.Gcn.Kern.result m c, Cert.Gcn.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Gcn.Ref.result_eq, (hagree c).1, (hagree c).2.1, (hagree c).2.2.1,
    (hagree c).2.2.2]
  obtain ⟨hx, hw, hs, hd⟩ := Cert.Gcn.finite_of_pre _ _ _ _ (hpre c)
  funext i
  exact (Cert.Gcn.fused_eq_chained _ _ _ _ hx hd hw hs (i 0) (i 1)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
